-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x32 : Shape := ⟨2, ![1600000, 32]⟩
abbrev S1600000x16 : Shape := ⟨2, ![1600000, 16]⟩
abbrev S80x80 : Shape := ⟨2, ![80, 80]⟩
abbrev S80 : Shape := ⟨1, ![80]⟩
abbrev S80x16 : Shape := ⟨2, ![80, 16]⟩
abbrev S16 : Shape := ⟨1, ![16]⟩
abbrev S_ : Shape := ⟨0, ![]⟩

class Facts : Prop where
  bcast_S_S1600000x32 : S_.BroadcastsInDim S1600000x32 (![] : Fin 0 → Fin S1600000x32.rank)
  reducesTo_S1600000x32_S_d0_1 : S1600000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S80x80 : S_.BroadcastsInDim S80x80 (![] : Fin 0 → Fin S80x80.rank)
  reducesTo_S80x80_S_d0_1 : S80x80.ReducesTo [0, 1] S_
  bcast_S_S80 : S_.BroadcastsInDim S80 (![] : Fin 0 → Fin S80.rank)
  reducesTo_S80_S_d0 : S80.ReducesTo [0] S_
  bcast_S_S80x16 : S_.BroadcastsInDim S80x16 (![] : Fin 0 → Fin S80x16.rank)
  reducesTo_S80x16_S_d0_1 : S80x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S80 .f32) (main_arg5 : FVec F S80x16 .f32) (main_arg6 : FVec F S16 .f32) (main_v13 : IVec S_ 1) (main_v16 : IVec S80x80 1) : IVec S_ 1 :=
  let main_c_5 : IVec S_ 1 := constantI S_ 1 1#1
  let main_v17 : IVec S_ 1 := (fun x v => Host.reduce IntOp.andi x v reducesTo_S80x80_S_d0_1 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  let main_v24 : FVec F S80x16 .f32 := Host.absf main_arg5
  let main_cst_8 : FVec F S_ .f32 := constant S_ .f32 0x7F800000#32
  let main_v25 : FVec F S80x16 .f32 := broadcastInDim S80x16 ![] bcast_S_S80x16 main_cst_8
  let main_v26 : IVec S80x16 1 := cmpf .olt main_v24 main_v25
  let main_c_9 : IVec S_ 1 := constantI S_ 1 1#1
  let main_v27 : IVec S_ 1 := (fun x v => Host.reduce IntOp.andi x v reducesTo_S80x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S1600000x32 .f32) (main_arg1 : FVec F S1600000x32 .f32) (main_arg2 : FVec F S1600000x16 .f32) (main_arg3 : FVec F S80x80 .f32) (main_arg4 : FVec F S80 .f32) (main_arg5 : FVec F S80x16 .f32) (main_arg6 : FVec F S16 .f32) : IVec S_ 1 :=
  let main_v0 : FVec F S1600000x32 .f32 := Host.absf main_arg0
  let main_cst : FVec F S_ .f32 := constant S_ .f32 0x7F800000#32
  let main_v1 : FVec F S1600000x32 .f32 := broadcastInDim S1600000x32 ![] bcast_S_S1600000x32 main_cst
  let main_v2 : IVec S1600000x32 1 := cmpf .olt main_v0 main_v1
  let main_c : IVec S_ 1 := constantI S_ 1 1#1
  let main_v3 : IVec S_ 1 := (fun x v => Host.reduce IntOp.andi x v reducesTo_S1600000x32_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S1600000x16 .f32 := Host.absf main_arg2
  let main_cst_2 : FVec F S_ .f32 := constant S_ .f32 0x7F800000#32
  let main_v10 : FVec F S1600000x16 .f32 := broadcastInDim S1600000x16 ![] bcast_S_S1600000x16 main_cst_2
  let main_v11 : IVec S1600000x16 1 := cmpf .olt main_v9 main_v10
  let main_c_3 : IVec S_ 1 := constantI S_ 1 1#1
  let main_v12 : IVec S_ 1 := (fun x v => Host.reduce IntOp.andi x v reducesTo_S1600000x16_S_d0_1 h_S_) main_v11 main_c_3
  let main_v13 : IVec S_ 1 := andi main_v8 main_v12
  let main_v14 : FVec F S80x80 .f32 := Host.absf main_arg3
  let main_cst_4 : FVec F S_ .f32 := constant S_ .f32 0x7F800000#32
  let main_v15 : FVec F S80x80 .f32 := broadcastInDim S80x80 ![] bcast_S_S80x80 main_cst_4
  let main_v16 : IVec S80x80 1 := cmpf .olt main_v14 main_v15
  fn_part1 (F := F) main_arg4 main_arg5 main_arg6 main_v13 main_v16
-- ==== Kernel.lean ====
abbrev S1600000x32 : Shape := ⟨2, ![1600000, 32]⟩
abbrev S1600000x16 : Shape := ⟨2, ![1600000, 16]⟩
abbrev S80x80 : Shape := ⟨2, ![80, 80]⟩
abbrev S80 : Shape := ⟨1, ![80]⟩
abbrev S80x16 : Shape := ⟨2, ![80, 16]⟩
abbrev S16 : Shape := ⟨1, ![16]⟩
abbrev S32x80 : Shape := ⟨2, ![32, 80]⟩
abbrev S16x80 : Shape := ⟨2, ![16, 80]⟩
abbrev S1x80 : Shape := ⟨2, ![1, 80]⟩
abbrev S1x16 : Shape := ⟨2, ![1, 16]⟩
abbrev S400000x128 : Shape := ⟨2, ![400000, 128]⟩
abbrev S200000x128 : Shape := ⟨2, ![200000, 128]⟩
abbrev S8000x128 : Shape := ⟨2, ![8000, 128]⟩
abbrev S4000x128 : Shape := ⟨2, ![4000, 128]⟩
abbrev S32000x32 : Shape := ⟨2, ![32000, 32]⟩
abbrev S32000x16 : Shape := ⟨2, ![32000, 16]⟩
abbrev S32000x80 : Shape := ⟨2, ![32000, 80]⟩

abbrev nBuf : Space → Nat
  | .hbm => 17
  | .vmem => 14
  | .smem => 0
  | _ => 0

abbrev bufTy : (tb : Table) → Fin (tcTables nBuf tb) → BufTy
  | .hbm, ⟨0, _⟩ => ⟨S1600000x32, .f32⟩
  | .hbm, ⟨1, _⟩ => ⟨S1600000x32, .f32⟩
  | .hbm, ⟨2, _⟩ => ⟨S1600000x16, .f32⟩
  | .hbm, ⟨3, _⟩ => ⟨S80x80, .f32⟩
  | .hbm, ⟨4, _⟩ => ⟨S80, .f32⟩
  | .hbm, ⟨5, _⟩ => ⟨S80x16, .f32⟩
  | .hbm, ⟨6, _⟩ => ⟨S16, .f32⟩
  | .hbm, ⟨7, _⟩ => ⟨S32x80, .f32⟩
  | .hbm, ⟨8, _⟩ => ⟨S32x80, .f32⟩
  | .hbm, ⟨9, _⟩ => ⟨S16x80, .f32⟩
  | .hbm, ⟨10, _⟩ => ⟨S1x80, .f32⟩
  | .hbm, ⟨11, _⟩ => ⟨S1x16, .f32⟩
  | .hbm, ⟨12, _⟩ => ⟨S400000x128, .f32⟩
  | .hbm, ⟨13, _⟩ => ⟨S400000x128, .f32⟩
  | .hbm, ⟨14, _⟩ => ⟨S200000x128, .f32⟩
  | .hbm, ⟨15, _⟩ => ⟨S200000x128, .f32⟩
  | .hbm, ⟨16, _⟩ => ⟨S1600000x16, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S4000x128, .f32⟩
  | .local _ .vmem, ⟨5, _⟩ => ⟨S4000x128, .f32⟩
  | .local _ .vmem, ⟨6, _⟩ => ⟨S32x80, .f32⟩
  | .local _ .vmem, ⟨7, _⟩ => ⟨S32x80, .f32⟩
  | .local _ .vmem, ⟨8, _⟩ => ⟨S16x80, .f32⟩
  | .local _ .vmem, ⟨9, _⟩ => ⟨S1x80, .f32⟩
  | .local _ .vmem, ⟨10, _⟩ => ⟨S80x16, .f32⟩
  | .local _ .vmem, ⟨11, _⟩ => ⟨S1x16, .f32⟩
  | .local _ .vmem, ⟨12, _⟩ => ⟨S4000x128, .f32⟩
  | .local _ .vmem, ⟨13, _⟩ => ⟨S4000x128, .f32⟩
  | _, _ => ⟨S1600000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S80x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S80x80_S32x80_0_0 : S80x80.Slices ![0, 0] S32x80
  slices_S80x80_S32x80_32_0 : S80x80.Slices ![32, 0] S32x80
  slices_S80x80_S16x80_64_0 : S80x80.Slices ![64, 0] S16x80
  shapeCasts_S80_S1x80 : S80.ShapeCasts S1x80
  shapeCasts_S16_S1x16 : S16.ShapeCasts S1x16
  shapeCasts_S1600000x32_S400000x128 : S1600000x32.ShapeCasts S400000x128
  shapeCasts_S1600000x16_S200000x128 : S1600000x16.ShapeCasts S200000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  shapeCasts_S8000x128_S32000x32 : S8000x128.ShapeCasts S32000x32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S4000x128_S32000x16 : S4000x128.ShapeCasts S32000x16
  inb_S32x80_S32x80_0_0 : ∀ a, (![0, 0] : Fin 2 → Nat) a + S32x80.size a ≤ S32x80.size a
  h_S32x80 : 0 < S32x80.numel
  shapeCasts_S32x80_S32x80 : S32x80.ShapeCasts S32x80
  inb_S16x80_S16x80_0_0 : ∀ a, (![0, 0] : Fin 2 → Nat) a + S16x80.size a ≤ S16x80.size a
  h_S16x80 : 0 < S16x80.numel
  shapeCasts_S16x80_S16x80 : S16x80.ShapeCasts S16x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S32000x80 : S1x80.Broadcasts S32000x80
  inb_S80x16_S80x16_0_0 : ∀ a, (![0, 0] : Fin 2 → Nat) a + S80x16.size a ≤ S80x16.size a
  h_S80x16 : 0 < S80x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S32000x16 : S1x16.Broadcasts S32000x16
  shapeCasts_S32000x16_S4000x128 : S32000x16.ShapeCasts S4000x128
  shapeCasts_S200000x128_S1600000x16 : S200000x128.ShapeCasts S1600000x16
  dot_S32000x32_S32x80_S32000x80_1_0_0_1_n_n_wf : DotDims.WF S32000x32 S32x80 S32000x80 [1] [0] [0] [1] [] []
  dot_S32000x16_S16x80_S32000x80_1_0_0_1_n_n_wf : DotDims.WF S32000x16 S16x80 S32000x80 [1] [0] [0] [1] [] []
  dot_S32000x80_S80x16_S32000x16_1_0_0_1_n_n_wf : DotDims.WF S32000x80 S80x16 S32000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S400000x128.size a
  hwx0_1 : ∀ i : grid0.Coords, EltTy.bits .f32 = 32 ∨ (Rect.block (s := S400000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x80.size a ≤ S32x80.size a
  hwx0_3 : ∀ i : grid0.Coords, EltTy.bits .f32 = 32 ∨ (Rect.block (s := S32x80) S32x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x80.size a ≤ S32x80.size a
  hwx0_4 : ∀ i : grid0.Coords, EltTy.bits .f32 = 32 ∨ (Rect.block (s := S32x80) S32x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x80.size a ≤ S16x80.size a
  hwx0_5 : ∀ i : grid0.Coords, EltTy.bits .f32 = 32 ∨ (Rect.block (s := S16x80) S16x80.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x80.size a ≤ S1x80.size a
  hwx0_6 : ∀ i : grid0.Coords, EltTy.bits .f32 = 32 ∨ (Rect.block (s := S1x80) S1x80.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S80x16.size a ≤ S80x16.size a
  hwx0_7 : ∀ i : grid0.Coords, EltTy.bits .f32 = 32 ∨ (Rect.block (s := S80x16) S80x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S200000x128.size a
  hwx0_9 : ∀ i : grid0.Coords, EltTy.bits .f32 = 32 ∨ (Rect.block (s := S200000x128) S4000x128.size (cc0_transform_9 i) (hinb0_9 i)).WholeWords (EltTy.packing .f32)

variable [Facts₀]

def dot_S32000x32_S32x80_S32000x80_1_0_0_1_n_n : DotDims S32000x32 S32x80 S32000x80 where
  lhsContracting := [1]
  rhsContracting := [0]
  lhsNonContracting := [0]
  rhsNonContracting := [1]
  lhsBatch := []
  rhsBatch := []
  wf := dot_S32000x32_S32x80_S32000x80_1_0_0_1_n_n_wf
def dot_S32000x16_S16x80_S32000x80_1_0_0_1_n_n : DotDims S32000x16 S16x80 S32000x80 where
  lhsContracting := [1]
  rhsContracting := [0]
  lhsNonContracting := [0]
  rhsNonContracting := [1]
  lhsBatch := []
  rhsBatch := []
  wf := dot_S32000x16_S16x80_S32000x80_1_0_0_1_n_n_wf
def dot_S32000x80_S80x16_S32000x16_1_0_0_1_n_n : DotDims S32000x80 S80x16 S32000x16 where
  lhsContracting := [1]
  rhsContracting := [0]
  lhsNonContracting := [0]
  rhsNonContracting := [1]
  lhsBatch := []
  rhsBatch := []
  wf := dot_S32000x80_S80x16_S32000x16_1_0_0_1_n_n_wf

abbrev win0_0 : Pipeline.Window sig grid0 :=
  Pipeline.Window.ofSpec (Memref.whole main_v5) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x80.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S80x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1600000x32 : Shape := ⟨2, ![1600000, 32]⟩
abbrev S1600000x16 : Shape := ⟨2, ![1600000, 16]⟩
abbrev S80x80 : Shape := ⟨2, ![80, 80]⟩
abbrev S80 : Shape := ⟨1, ![80]⟩
abbrev S80x16 : Shape := ⟨2, ![80, 16]⟩
abbrev S16 : Shape := ⟨1, ![16]⟩
abbrev S1600000x80 : Shape := ⟨2, ![1600000, 80]⟩
abbrev S1x80 : Shape := ⟨2, ![1, 80]⟩
abbrev S_ : Shape := ⟨0, ![]⟩
abbrev S1x16 : Shape := ⟨2, ![1, 16]⟩

abbrev nBuf : Space → Nat
  | .hbm => 22
  | .vmem => 0
  | .smem => 0
  | _ => 0

abbrev bufTy : (tb : Table) → Fin (tcTables nBuf tb) → BufTy
  | .hbm, ⟨0, _⟩ => ⟨S1600000x32, .f32⟩
  | .hbm, ⟨1, _⟩ => ⟨S1600000x32, .f32⟩
  | .hbm, ⟨2, _⟩ => ⟨S1600000x16, .f32⟩
  | .hbm, ⟨3, _⟩ => ⟨S80x80, .f32⟩
  | .hbm, ⟨4, _⟩ => ⟨S80, .f32⟩
  | .hbm, ⟨5, _⟩ => ⟨S80x16, .f32⟩
  | .hbm, ⟨6, _⟩ => ⟨S16, .f32⟩
  | .hbm, ⟨7, _⟩ => ⟨S1600000x80, .f32⟩
  | .hbm, ⟨8, _⟩ => ⟨S1600000x80, .f32⟩
  | .hbm, ⟨9, _⟩ => ⟨S1x80, .f32⟩
  | .hbm, ⟨10, _⟩ => ⟨S1600000x80, .f32⟩
  | .hbm, ⟨11, _⟩ => ⟨S1600000x80, .f32⟩
  | .hbm, ⟨12, _⟩ => ⟨S_, .f32⟩
  | .hbm, ⟨13, _⟩ => ⟨S1600000x80, .f32⟩
  | .hbm, ⟨14, _⟩ => ⟨S1600000x80, .f32⟩
  | .hbm, ⟨15, _⟩ => ⟨S1600000x16, .f32⟩
  | .hbm, ⟨16, _⟩ => ⟨S1x16, .f32⟩
  | .hbm, ⟨17, _⟩ => ⟨S1600000x16, .f32⟩
  | .hbm, ⟨18, _⟩ => ⟨S1600000x16, .f32⟩
  | .hbm, ⟨19, _⟩ => ⟨S_, .f32⟩
  | .hbm, ⟨20, _⟩ => ⟨S1600000x16, .f32⟩
  | .hbm, ⟨21, _⟩ => ⟨S1600000x16, .f32⟩
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  concatenates_S1600000x32_S1600000x32_S1600000x16_S1600000x80_d1 : Shape.Concatenates [S1600000x32, S1600000x32, S1600000x16] S1600000x80 1
  bcast_S80_S1x80_1 : S80.BroadcastsInDim S1x80 (![1] : Fin 1 → Fin S1x80.rank)
  bcast_S1x80_S1600000x80_0_1 : S1x80.BroadcastsInDim S1600000x80 (![0, 1] : Fin 2 → Fin S1600000x80.rank)
  bcast_S_S1600000x80 : S_.BroadcastsInDim S1600000x80 (![] : Fin 0 → Fin S1600000x80.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  dot_S1600000x80_S80x80_S1600000x80_1_0_0_1_n_n_wf : DotDims.WF S1600000x80 S80x80 S1600000x80 [1] [0] [0] [1] [] []
  dot_S1600000x80_S80x16_S1600000x16_1_0_0_1_n_n_wf : DotDims.WF S1600000x80 S80x16 S1600000x16 [1] [0] [0] [1] [] []

variable [Facts₀]

def dot_S1600000x80_S80x80_S1600000x80_1_0_0_1_n_n : DotDims S1600000x80 S80x80 S1600000x80 where
  lhsContracting := [1]
  rhsContracting := [0]
  lhsNonContracting := [0]
  rhsNonContracting := [1]
  lhsBatch := []
  rhsBatch := []
  wf := dot_S1600000x80_S80x80_S1600000x80_1_0_0_1_n_n_wf
def dot_S1600000x80_S80x16_S1600000x16_1_0_0_1_n_n : DotDims S1600000x80 S80x16 S1600000x16 where
  lhsContracting := [1]
  rhsContracting := [0]
  lhsNonContracting := [0]
  rhsNonContracting := [1]
  lhsBatch := []
  rhsBatch := []
  wf := dot_S1600000x80_S80x16_S1600000x16_1_0_0_1_n_n_wf

class Facts : Prop extends Facts₀ where

variable [Facts]
-- ==== Proof.Spec.lean ====
/-
  What one edge's message is, as a function of the seven argument arrays, over the extended reals.

  For edge `e` the three feature rows `source e` (32 numbers), `target e` (32) and `edge_attr e` (16) are, laid end to
  end, one row `x e` of 80 numbers. The hidden layer is `h e k = max (∑ l < 80, x e l · w1 l k + b1 k) 0` and the message
  is `max (∑ k < 80, h e k · w2 k j + b2 j) 0`. Here the 80-term sum of the first layer is written as the kernel
  computes it — the sum over the source rows of `w1` (rows 0–31), plus the sum over the target rows (rows 32–63), plus
  the sum over the edge-feature rows (rows 64–79) — and `sum_three_bands` is the law that joins this to the one
  80-term sum: a finite sum over `Fin 80` cut at 32 and 64. Addition of extended reals is commutative and
  associative (also at the infinities), which is all the law uses; no distributivity, so no finiteness.
-/
import Idealize.ShloMosaic.PureOps.Ideal
import Idealize.ShloMosaic.Lib.ValueIdx

noncomputable section

namespace Cert.EdgeMlp

open Idealize.ShloMosaic Idealize.ShloMosaic.ValueIdx

/-- The floor of both rectifiers: the word of `0.0`, read at the extended reals. Both programs carry this same word, so
    it is never evaluated. -/
abbrev floor0 : EReal := Ideal.ofBits .f32 0x00000000#32

/-- Row `l` of the source band of `w1` (rows 0–31). -/
abbrev bandS (l : Fin 32) : Fin 80 := ⟨l.val, by have := l.isLt; omega⟩
/-- Row `l` of the target band of `w1` (rows 32–63). -/
abbrev bandT (l : Fin 32) : Fin 80 := ⟨32 + l.val, by have := l.isLt; omega⟩
/-- Row `l` of the edge-feature band of `w1` (rows 64–79). -/
abbrev bandE (l : Fin 16) : Fin 80 := ⟨64 + l.val, by have := l.isLt; omega⟩

/-- The hidden unit `k` of edge `e`: the rectified affine form of the edge's 80 features, the 80-term sum written band
    by band. -/
def hiddenUnit (src tgt : FVec Ideal ⟨2, ![1600000, 32]⟩ .f32) (ea : FVec Ideal ⟨2, ![1600000, 16]⟩ .f32)
    (w1 : FVec Ideal ⟨2, ![80, 80]⟩ .f32) (b1 : FVec Ideal ⟨1, ![80]⟩ .f32) (e : Fin 1600000) (k : Fin 80) : EReal :=
  max ((((∑ l : Fin 32, src (ix2 e l) * w1 (ix2 (bandS l) k)) + (∑ l : Fin 32, tgt (ix2 e l) * w1 (ix2 (bandT l) k)))
      + (∑ l : Fin 16, ea (ix2 e l) * w1 (ix2 (bandE l) k))) + b1 (ix1 k)) floor0

/-- Component `j` of edge `e`'s message: the rectified affine form of its 80 hidden units. -/
def message (src tgt : FVec Ideal ⟨2, ![1600000, 32]⟩ .f32) (ea : FVec Ideal ⟨2, ![1600000, 16]⟩ .f32)
    (w1 : FVec Ideal ⟨2, ![80, 80]⟩ .f32) (b1 : FVec Ideal ⟨1, ![80]⟩ .f32) (w2 : FVec Ideal ⟨2, ![80, 16]⟩ .f32)
    (b2 : FVec Ideal ⟨1, ![16]⟩ .f32) (e : Fin 1600000) (j : Fin 16) : EReal :=
  max ((∑ k : Fin 80, hiddenUnit src tgt ea w1 b1 e k * w2 (ix2 k j)) + b2 (ix1 j)) floor0

/-- All messages, as the array of shape [1600000, 16] both programs return. -/
def messages (src tgt : FVec Ideal ⟨2, ![1600000, 32]⟩ .f32) (ea : FVec Ideal ⟨2, ![1600000, 16]⟩ .f32)
    (w1 : FVec Ideal ⟨2, ![80, 80]⟩ .f32) (b1 : FVec Ideal ⟨1, ![80]⟩ .f32) (w2 : FVec Ideal ⟨2, ![80, 16]⟩ .f32)
    (b2 : FVec Ideal ⟨1, ![16]⟩ .f32) : FVec Ideal ⟨2, ![1600000, 16]⟩ .f32 :=
  fun i => message src tgt ea w1 b1 w2 b2 (i 0) (i 1)

theorem messages_apply (src tgt : FVec Ideal ⟨2, ![1600000, 32]⟩ .f32) (ea : FVec Ideal ⟨2, ![1600000, 16]⟩ .f32)
    (w1 : FVec Ideal ⟨2, ![80, 80]⟩ .f32) (b1 : FVec Ideal ⟨1, ![80]⟩ .f32) (w2 : FVec Ideal ⟨2, ![80, 16]⟩ .f32)
    (b2 : FVec Ideal ⟨1, ![16]⟩ .f32) (e : Fin 1600000) (j : Fin 16) :
    messages src tgt ea w1 b1 w2 b2 (ix2 e j) = message src tgt ea w1 b1 w2 b2 e j := rfl

/-- A sum over 80 terms is the sum of its first 32, its next 32 and its last 16: the only algebra between the
    reference's one product with `w1` and the kernel's three products with the bands of `w1`. It holds in every
    commutative monoid, so in the extended reals without any finiteness. -/
theorem sum_three_bands {M : Type*} [AddCommMonoid M] (f : Fin 80 → M) :
    ∑ k : Fin 80, f k = ((∑ l : Fin 32, f (bandS l)) + (∑ l : Fin 32, f (bandT l))) + (∑ l : Fin 16, f (bandE l)) := by
  have h1 := Fin.sum_univ_add (a := 64) (b := 16) (fun k : Fin (64 + 16) => f k)
  have h2 := Fin.sum_univ_add (a := 32) (b := 32) (fun k : Fin (32 + 32) => f (Fin.castAdd 16 k))
  refine h1.trans ?_
  rw [h2]
  refine congrArg₂ (· + ·) (congrArg₂ (· + ·) ?_ ?_) ?_
  · exact Finset.sum_congr rfl fun l _ => congrArg f (Fin.ext rfl)
  · exact Finset.sum_congr rfl fun l _ => congrArg f (Fin.ext rfl)
  · exact Finset.sum_congr rfl fun l _ => congrArg f (Fin.ext rfl)

end Cert.EdgeMlp

end
-- ==== Proof.Tile.lean ====
/-
  One grid point's tile of the kernel, read at an index, over the extended reals.

  A grid point works on 32000 consecutive edges. It receives them packed, four source (or target) rows, or eight
  edge-feature rows, to a 128-wide row; re-read row-major at widths 32 and 16 they are the edges' own feature rows again
  (position `r·32 + l` of the packed tile is feature `l` of the tile's edge `r`). The hidden tile is the rectified sum of
  the three products with the bands of `w1` and the bias row; the message tile is the rectified product with `w2` plus
  its bias row, re-read row-major at width 128 (position `r·16 + j` of the packed result is component `j` of edge `r`).
  Each matrix product into a zero accumulator is, entry by entry, the plain sum over its one contracted axis.

  `tile_apply` states the result for ANY blocks that agree with the argument arrays at the same row-major positions
  (`hS`, `hT`, `hE`), with the bands of `w1` (`hWs`, `hWt`, `hWe`), and with `b1`, `w2`, `b2`: the packed tile at
  position `(p, q)` is `EdgeMlp.message` of the edge and component at the same row-major position of the whole result.
-/
import proofs.«157088_j2199023255661_2_alg».proof.Proof.Gen.KernelIdeal.Skeleton
import proofs.«157088_j2199023255661_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.EdgeMlp

/-! ## The three matrix products, entry by entry -/

/-- Rows of 32 features times a 32-row band of `w1`. -/
abbrev dS := dot_S32000x32_S32x80_S32000x80_1_0_0_1_n_n
/-- Rows of 16 features times the 16-row band of `w1`. -/
abbrev dE := dot_S32000x16_S16x80_S32000x80_1_0_0_1_n_n
/-- Rows of 80 hidden units times `w2`. -/
abbrev dO := dot_S32000x80_S80x16_S32000x16_1_0_0_1_n_n

/-- The operand indices of a product of rows with a matrix, coordinate by coordinate: at entry `i` of the result and
    place `q` of the contracted axis, the left operand is read at (row of `i`, `q`) and the right at (`q`, column of `i`). -/
theorem dS_lhs0 (i : S32000x80.Idx) (q : dS.contr.Idx) : (dS.lhsIdx i q 0).val = (i 0).val := by
  unfold DotDims.lhsIdx
  rw [dif_neg (show ¬(0 : Fin S32000x32.rank) ∈ dS.lhsBatch by decide), dif_pos (show (0 : Fin S32000x32.rank) ∈ dS.lhsNonContracting by decide)]
  rfl
theorem dS_lhs1 (i : S32000x80.Idx) (q : dS.contr.Idx) : (dS.lhsIdx i q 1).val = (q ⟨0, by decide⟩).val :=
  dS.lhsIdx_val_of_single rfl i q
theorem dS_rhs0 (i : S32000x80.Idx) (q : dS.contr.Idx) : (dS.rhsIdx i q 0).val = (q ⟨0, by decide⟩).val :=
  dS.rhsIdx_val_of_single rfl i q
theorem dS_rhs1 (i : S32000x80.Idx) (q : dS.contr.Idx) : (dS.rhsIdx i q 1).val = (i 1).val := by
  unfold DotDims.rhsIdx
  rw [dif_neg (show ¬(1 : Fin S32x80.rank) ∈ dS.rhsBatch by decide), dif_pos (show (1 : Fin S32x80.rank) ∈ dS.rhsNonContracting by decide)]
  rfl

/-- A product of 32-feature rows with a band, into zero: entry `(r, k)` is the sum over the 32 features. -/
theorem mulS_apply (x : FVec Ideal S32000x32 .f32) (w : FVec Ideal S32x80 .f32) (r : Fin 32000) (k : Fin 80) :
    matmul dS none x w (constant S32000x80 .f32 0x00000000#32) (ix2 r k) = ∑ l : Fin 32, x (ix2 r l) * w (ix2 l k) := by
  simp only [matmul]
  rw [Ideal.matmul_constant_zero_apply, ← Equiv.sum_comp (contrEquiv1 dS 32 rfl rfl).symm]
  refine Finset.sum_congr rfl fun l _ => ?_
  have hl := contrEquiv1_symm_val dS 32 rfl rfl l
  have el : dS.lhsIdx (ix2 r k) ((contrEquiv1 dS 32 rfl rfl).symm l) = ix2 r l := funext fun a => Fin.ext (by
    match a with
    | ⟨0, _⟩ => exact dS_lhs0 _ _
    | ⟨1, _⟩ => exact (dS_lhs1 _ _).trans hl)
  have er : dS.rhsIdx (ix2 r k) ((contrEquiv1 dS 32 rfl rfl).symm l) = ix2 l k := funext fun a => Fin.ext (by
    match a with
    | ⟨0, _⟩ => exact (dS_rhs0 _ _).trans hl
    | ⟨1, _⟩ => exact dS_rhs1 _ _)
  rw [el, er]

theorem dE_lhs0 (i : S32000x80.Idx) (q : dE.contr.Idx) : (dE.lhsIdx i q 0).val = (i 0).val := by
  unfold DotDims.lhsIdx
  rw [dif_neg (show ¬(0 : Fin S32000x16.rank) ∈ dE.lhsBatch by decide), dif_pos (show (0 : Fin S32000x16.rank) ∈ dE.lhsNonContracting by decide)]
  rfl
theorem dE_lhs1 (i : S32000x80.Idx) (q : dE.contr.Idx) : (dE.lhsIdx i q 1).val = (q ⟨0, by decide⟩).val :=
  dE.lhsIdx_val_of_single rfl i q
theorem dE_rhs0 (i : S32000x80.Idx) (q : dE.contr.Idx) : (dE.rhsIdx i q 0).val = (q ⟨0, by decide⟩).val :=
  dE.rhsIdx_val_of_single rfl i q
theorem dE_rhs1 (i : S32000x80.Idx) (q : dE.contr.Idx) : (dE.rhsIdx i q 1).val = (i 1).val := by
  unfold DotDims.rhsIdx
  rw [dif_neg (show ¬(1 : Fin S16x80.rank) ∈ dE.rhsBatch by decide), dif_pos (show (1 : Fin S16x80.rank) ∈ dE.rhsNonContracting by decide)]
  rfl

/-- A product of 16-feature rows with the edge-feature band, into zero: entry `(r, k)` is the sum over the 16 features. -/
theorem mulE_apply (x : FVec Ideal S32000x16 .f32) (w : FVec Ideal S16x80 .f32) (r : Fin 32000) (k : Fin 80) :
    matmul dE none x w (constant S32000x80 .f32 0x00000000#32) (ix2 r k) = ∑ l : Fin 16, x (ix2 r l) * w (ix2 l k) := by
  simp only [matmul]
  rw [Ideal.matmul_constant_zero_apply, ← Equiv.sum_comp (contrEquiv1 dE 16 rfl rfl).symm]
  refine Finset.sum_congr rfl fun l _ => ?_
  have hl := contrEquiv1_symm_val dE 16 rfl rfl l
  have el : dE.lhsIdx (ix2 r k) ((contrEquiv1 dE 16 rfl rfl).symm l) = ix2 r l := funext fun a => Fin.ext (by
    match a with
    | ⟨0, _⟩ => exact dE_lhs0 _ _
    | ⟨1, _⟩ => exact (dE_lhs1 _ _).trans hl)
  have er : dE.rhsIdx (ix2 r k) ((contrEquiv1 dE 16 rfl rfl).symm l) = ix2 l k := funext fun a => Fin.ext (by
    match a with
    | ⟨0, _⟩ => exact (dE_rhs0 _ _).trans hl
    | ⟨1, _⟩ => exact dE_rhs1 _ _)
  rw [el, er]

theorem dO_lhs0 (i : S32000x16.Idx) (q : dO.contr.Idx) : (dO.lhsIdx i q 0).val = (i 0).val := by
  unfold DotDims.lhsIdx
  rw [dif_neg (show ¬(0 : Fin S32000x80.rank) ∈ dO.lhsBatch by decide), dif_pos (show (0 : Fin S32000x80.rank) ∈ dO.lhsNonContracting by decide)]
  rfl
theorem dO_lhs1 (i : S32000x16.Idx) (q : dO.contr.Idx) : (dO.lhsIdx i q 1).val = (q ⟨0, by decide⟩).val :=
  dO.lhsIdx_val_of_single rfl i q
theorem dO_rhs0 (i : S32000x16.Idx) (q : dO.contr.Idx) : (dO.rhsIdx i q 0).val = (q ⟨0, by decide⟩).val :=
  dO.rhsIdx_val_of_single rfl i q
theorem dO_rhs1 (i : S32000x16.Idx) (q : dO.contr.Idx) : (dO.rhsIdx i q 1).val = (i 1).val := by
  unfold DotDims.rhsIdx
  rw [dif_neg (show ¬(1 : Fin S80x16.rank) ∈ dO.rhsBatch by decide), dif_pos (show (1 : Fin S80x16.rank) ∈ dO.rhsNonContracting by decide)]
  rfl

/-- A product of 80-unit rows with `w2`, into zero: entry `(r, j)` is the sum over the 80 hidden units. -/
theorem mulO_apply (h : FVec Ideal S32000x80 .f32) (w : FVec Ideal S80x16 .f32) (r : Fin 32000) (j : Fin 16) :
    matmul dO none h w (constant S32000x16 .f32 0x00000000#32) (ix2 r j) = ∑ k : Fin 80, h (ix2 r k) * w (ix2 k j) := by
  simp only [matmul]
  rw [Ideal.matmul_constant_zero_apply, ← Equiv.sum_comp (contrEquiv1 dO 80 rfl rfl).symm]
  refine Finset.sum_congr rfl fun k _ => ?_
  have hk := contrEquiv1_symm_val dO 80 rfl rfl k
  have el : dO.lhsIdx (ix2 r j) ((contrEquiv1 dO 80 rfl rfl).symm k) = ix2 r k := funext fun a => Fin.ext (by
    match a with
    | ⟨0, _⟩ => exact dO_lhs0 _ _
    | ⟨1, _⟩ => exact (dO_lhs1 _ _).trans hk)
  have er : dO.rhsIdx (ix2 r j) ((contrEquiv1 dO 80 rfl rfl).symm k) = ix2 k j := funext fun a => Fin.ext (by
    match a with
    | ⟨0, _⟩ => exact (dO_rhs0 _ _).trans hk
    | ⟨1, _⟩ => exact dO_rhs1 _ _)
  rw [el, er]

/-! ## The hidden tile -/

/-- The 32000 × 80 hidden units of one tile, from the packed blocks: the part of the body before the second product. -/
def hiddenTile (X0 X1 : FVec Ideal S8000x128 .f32) (X2 : FVec Ideal S4000x128 .f32) (X3 X4 : FVec Ideal S32x80 .f32)
    (X5 : FVec Ideal S16x80 .f32) (X6 : FVec Ideal S1x80 .f32) : FVec Ideal S32000x80 .f32 :=
  maximumf
    (addf
      (addf
        (addf
          (matmul (φ₁ := .f32) (φ₂ := .f32) dS none (shapeCast S32000x32 (shapeCast S8000x128 X0 shapeCasts_S8000x128_S8000x128) shapeCasts_S8000x128_S32000x32)
            (shapeCast S32x80 X3 shapeCasts_S32x80_S32x80) (constant S32000x80 .f32 0x00000000#32))
          (matmul (φ₁ := .f32) (φ₂ := .f32) dS none (shapeCast S32000x32 (shapeCast S8000x128 X1 shapeCasts_S8000x128_S8000x128) shapeCasts_S8000x128_S32000x32)
            (shapeCast S32x80 X4 shapeCasts_S32x80_S32x80) (constant S32000x80 .f32 0x00000000#32)))
        (matmul (φ₁ := .f32) (φ₂ := .f32) dE none (shapeCast S32000x16 (shapeCast S4000x128 X2 shapeCasts_S4000x128_S4000x128) shapeCasts_S4000x128_S32000x16)
          (shapeCast S16x80 X5 shapeCasts_S16x80_S16x80) (constant S32000x80 .f32 0x00000000#32)))
      (broadcastTo S32000x80 (shapeCast S1x80 X6 shapeCasts_S1x80_S1x80) broadcasts_S1x80_S32000x80))
    (broadcast S32000x80 (Scalar.ofBits .f32 0x00000000#32))

/-- The body's one stored value is the second layer applied to the hidden tile, re-read at width 128. -/
theorem pay_eq_layers (X0 X1 : FVec Ideal S8000x128 .f32) (X2 : FVec Ideal S4000x128 .f32) (X3 X4 : FVec Ideal S32x80 .f32)
    (X5 : FVec Ideal S16x80 .f32) (X6 : FVec Ideal S1x80 .f32) (X7 : FVec Ideal S80x16 .f32) (X8 : FVec Ideal S1x16 .f32) :
    k0_pay1 (F := Ideal) X0 X1 X2 X3 X4 X5 X6 X7 X8
      = shapeCast S4000x128
          (maximumf
            (addf (matmul (φ₁ := .f32) (φ₂ := .f32) dO none (hiddenTile X0 X1 X2 X3 X4 X5 X6) X7 (constant S32000x16 .f32 0x00000000#32))
              (broadcastTo S32000x16 (shapeCast S1x16 X8 shapeCasts_S1x16_S1x16) broadcasts_S1x16_S32000x16))
            (broadcast S32000x16 (Scalar.ofBits .f32 0x00000000#32)))
          shapeCasts_S32000x16_S4000x128 := rfl

section
variable (X0 X1 : FVec Ideal S8000x128 .f32) (X2 : FVec Ideal S4000x128 .f32) (X3 X4 : FVec Ideal S32x80 .f32)
  (X5 : FVec Ideal S16x80 .f32) (X6 : FVec Ideal S1x80 .f32) (X7 : FVec Ideal S80x16 .f32) (X8 : FVec Ideal S1x16 .f32)
  (src tgt : FVec Ideal ⟨2, ![1600000, 32]⟩ .f32) (ea : FVec Ideal ⟨2, ![1600000, 16]⟩ .f32)
  (w1 : FVec Ideal ⟨2, ![80, 80]⟩ .f32) (b1 : FVec Ideal ⟨1, ![80]⟩ .f32) (w2 : FVec Ideal ⟨2, ![80, 16]⟩ .f32)
  (b2 : FVec Ideal ⟨1, ![16]⟩ .f32)
  (t : Nat)
  (hS : ∀ (a : Fin 8000) (b : Fin 128) (e : Fin 1600000) (l : Fin 32),
    e.val * 32 + l.val = (8000 * t + a.val) * 128 + b.val → X0 (ix2 a b) = src (ix2 e l))
  (hT : ∀ (a : Fin 8000) (b : Fin 128) (e : Fin 1600000) (l : Fin 32),
    e.val * 32 + l.val = (8000 * t + a.val) * 128 + b.val → X1 (ix2 a b) = tgt (ix2 e l))
  (hE : ∀ (a : Fin 4000) (b : Fin 128) (e : Fin 1600000) (l : Fin 16),
    e.val * 16 + l.val = (4000 * t + a.val) * 128 + b.val → X2 (ix2 a b) = ea (ix2 e l))
  (hWs : ∀ (l : Fin 32) (k : Fin 80), X3 (ix2 l k) = w1 (ix2 (bandS l) k))
  (hWt : ∀ (l : Fin 32) (k : Fin 80), X4 (ix2 l k) = w1 (ix2 (bandT l) k))
  (hWe : ∀ (l : Fin 16) (k : Fin 80), X5 (ix2 l k) = w1 (ix2 (bandE l) k))
  (hB1 : ∀ k : Fin 80, X6 (ix2 (0 : Fin 1) k) = b1 (ix1 k))
  (hW2 : ∀ (k : Fin 80) (j : Fin 16), X7 (ix2 k j) = w2 (ix2 k j))
  (hB2 : ∀ j : Fin 16, X8 (ix2 (0 : Fin 1) j) = b2 (ix1 j))

include hS in
/-- Feature `l` of the tile's edge `r`, read out of the packed source block, is the source array's. -/
theorem srcRow (r : Fin 32000) (l : Fin 32) (e : Fin 1600000) (he : e.val = 32000 * t + r.val) :
    shapeCast S32000x32 X0 shapeCasts_S8000x128_S32000x32 (ix2 r l) = src (ix2 e l) := by
  have hr := r.isLt
  have hl := l.isLt
  refine (shapeCast_apply X0 _ (ix2 r l) (ix2 (⟨r.val / 4, by omega⟩ : Fin 8000) (⟨(r.val % 4) * 32 + l.val, by omega⟩ : Fin 128)) ?_).trans
    (hS _ _ e l ?_)
  · rw [Shape.rowMajor_val_two, Shape.rowMajor_val_two]
    show r.val / 4 * 128 + ((r.val % 4) * 32 + l.val) = r.val * 32 + l.val
    omega
  · show e.val * 32 + l.val = (8000 * t + r.val / 4) * 128 + ((r.val % 4) * 32 + l.val)
    omega

include hT in
theorem tgtRow (r : Fin 32000) (l : Fin 32) (e : Fin 1600000) (he : e.val = 32000 * t + r.val) :
    shapeCast S32000x32 X1 shapeCasts_S8000x128_S32000x32 (ix2 r l) = tgt (ix2 e l) :=
  srcRow X1 tgt t hT r l e he

include hE in
/-- Feature `l` of the tile's edge `r`, read out of the packed edge-feature block, is the edge-feature array's. -/
theorem eaRow (r : Fin 32000) (l : Fin 16) (e : Fin 1600000) (he : e.val = 32000 * t + r.val) :
    shapeCast S32000x16 X2 shapeCasts_S4000x128_S32000x16 (ix2 r l) = ea (ix2 e l) := by
  have hr := r.isLt
  have hl := l.isLt
  refine (shapeCast_apply X2 _ (ix2 r l) (ix2 (⟨r.val / 8, by omega⟩ : Fin 4000) (⟨(r.val % 8) * 16 + l.val, by omega⟩ : Fin 128)) ?_).trans
    (hE _ _ e l ?_)
  · rw [Shape.rowMajor_val_two, Shape.rowMajor_val_two]
    show r.val / 8 * 128 + ((r.val % 8) * 16 + l.val) = r.val * 16 + l.val
    omega
  · show e.val * 16 + l.val = (4000 * t + r.val / 8) * 128 + ((r.val % 8) * 16 + l.val)
    omega

include hS hT hE hWs hWt hWe hB1 in
/-- The hidden tile's entry `(r, k)` is hidden unit `k` of the tile's edge `r`. -/
theorem hiddenTile_apply (r : Fin 32000) (k : Fin 80) (e : Fin 1600000) (he : e.val = 32000 * t + r.val) :
    hiddenTile X0 X1 X2 X3 X4 X5 X6 (ix2 r k) = hiddenUnit src tgt ea w1 b1 e k := by
  unfold hiddenTile hiddenUnit
  simp only [shapeCast_self]
  rw [maximumf_apply, addf_apply, addf_apply, addf_apply, mulS_apply, mulS_apply, mulE_apply,
    broadcastTo_1b_ab_apply, broadcast_apply]
  simp only [srcRow X0 src t hS _ _ e he, tgtRow X1 tgt t hT _ _ e he, eaRow X2 ea t hE _ _ e he, hWs, hWt, hWe, hB1]
  rfl

include hS hT hE hWs hWt hWe hB1 hW2 hB2 in
/-- THE TILE: position `(p, q)` of the packed value a grid point stores is the message component at the same row-major
    position of the whole [1600000, 16] result. -/
theorem tile_apply (p : Fin 4000) (q : Fin 128) (e : Fin 1600000) (j : Fin 16)
    (hej : e.val * 16 + j.val = (4000 * t + p.val) * 128 + q.val) :
    k0_pay1 (F := Ideal) X0 X1 X2 X3 X4 X5 X6 X7 X8 (ix2 p q) = message src tgt ea w1 b1 w2 b2 e j := by
  have hp := p.isLt
  have hq := q.isLt
  have hj := j.isLt
  rw [pay_eq_layers]
  obtain ⟨r, hr⟩ : ∃ r : Fin 32000, r.val * 16 + j.val = p.val * 128 + q.val :=
    ⟨⟨(p.val * 128 + q.val) / 16, by omega⟩, by show (p.val * 128 + q.val) / 16 * 16 + j.val = p.val * 128 + q.val; omega⟩
  have he : e.val = 32000 * t + r.val := by omega
  refine (shapeCast_apply _ _ (ix2 p q) (ix2 r j) ?_).trans ?_
  · rw [Shape.rowMajor_val_two, Shape.rowMajor_val_two]
    show r.val * 16 + j.val = p.val * 128 + q.val
    exact hr
  simp only [shapeCast_self]
  rw [maximumf_apply, addf_apply, mulO_apply, broadcastTo_1b_ab_apply, broadcast_apply]
  unfold message
  simp only [hiddenTile_apply X0 X1 X2 X3 X4 X5 X6 src tgt ea w1 b1 t hS hT hE hWs hWt hWe hB1 r _ e he, hW2, hB2]
  rfl

end

end Cert.KernelIdeal.Tile

end
-- ==== Proof.KernelValue.lean ====
/-
  What the kernel's program returns, over the extended reals: `EdgeMlp.messages` of its seven argument arrays.

  Before the grid runs, the program re-reads `source` and `target` row-major at width 128 (four edges to a row) and
  `edge_attr` at width 128 (eight edges to a row), cuts `w1` into its three bands of rows (0–31, 32–63, 64–79) and gives
  `b1`, `b2` a leading unit axis. Grid point `t` (of 50) is handed rows `8000·t …` of the packed node arrays and rows
  `4000·t …` of the packed edge features — the 32000 edges `32000·t …` — together with the whole of each band, of `w2`
  and of the biases, and writes rows `4000·t …` of a packed [200000, 128] result. So a block's entry sits at the
  argument array's entry with the same row-major position (`blkSrc`, `blkTgt`, `blkEa`), and by `Tile.tile_apply` what
  point `t` writes back is block `t` of the messages array re-read at width 128 (`written`). The 50 blocks tile the packed
  result (`covered`), and the program's last step re-reads it row-major at width 16, undoing the packing (`result`).
-/
import proofs.«157088_j2199023255661_2_alg».proof.Proof.Gen.KernelIdeal.Frame
import proofs.«157088_j2199023255661_2_alg».proof.Proof.Tile
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.EdgeMlp

variable (m : (ℓ : Loc nD τ sig) → Buf (Elt Ideal) ℓ) (ρ : Dev nD → PrngReg)

theorem hz : (![0, 0] : Fin 2 → Nat) = fun _ => 0 := funext fun a => by fin_cases a <;> rfl

/-- The grid has 50 points. -/
theorem lt50 (t : Fin cfg0.N) : t.val < 50 := by
  exact lt_of_lt_of_eq t.isLt (show cfg0.N = 50 from N_0)

/-- Which block each window is handed at point `t`: the three packed inputs and the packed output move down their arrays
    one block per point; the bands, `w2` and the biases are whole. Decided over the 50 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## The arrays the grid is handed, as functions of the arguments -/

theorem V_src (c : Dev nD) : (V m c main_v5 : S400000x128.Idx → EReal)
    = shapeCast S400000x128 (m ((c : Thread nD τ).loc main_arg0) : S1600000x32.Idx → EReal) shapeCasts_S1600000x32_S400000x128 := by
  show StableHlo.after hostOps0 (fun b => m (c, b)) (Proc.devRef .tc main_v5) = _
  after_results
  rfl

theorem V_tgt (c : Dev nD) : (V m c main_v6 : S400000x128.Idx → EReal)
    = shapeCast S400000x128 (m ((c : Thread nD τ).loc main_arg1) : S1600000x32.Idx → EReal) shapeCasts_S1600000x32_S400000x128 := by
  show StableHlo.after hostOps0 (fun b => m (c, b)) (Proc.devRef .tc main_v6) = _
  after_results
  rfl

theorem V_ea (c : Dev nD) : (V m c main_v7 : S200000x128.Idx → EReal)
    = shapeCast S200000x128 (m ((c : Thread nD τ).loc main_arg2) : S1600000x16.Idx → EReal) shapeCasts_S1600000x16_S200000x128 := by
  show StableHlo.after hostOps0 (fun b => m (c, b)) (Proc.devRef .tc main_v7) = _
  after_results
  rfl

theorem V_ws (c : Dev nD) : (V m c main_v0 : S32x80.Idx → EReal)
    = extractStridedSlice S32x80 ![0, 0] (m ((c : Thread nD τ).loc main_arg3) : S80x80.Idx → EReal) slices_S80x80_S32x80_0_0 := by
  show StableHlo.after hostOps0 (fun b => m (c, b)) (Proc.devRef .tc main_v0) = _
  after_results

theorem V_wt (c : Dev nD) : (V m c main_v1 : S32x80.Idx → EReal)
    = extractStridedSlice S32x80 ![32, 0] (m ((c : Thread nD τ).loc main_arg3) : S80x80.Idx → EReal) slices_S80x80_S32x80_32_0 := by
  show StableHlo.after hostOps0 (fun b => m (c, b)) (Proc.devRef .tc main_v1) = _
  after_results

theorem V_we (c : Dev nD) : (V m c main_v2 : S16x80.Idx → EReal)
    = extractStridedSlice S16x80 ![64, 0] (m ((c : Thread nD τ).loc main_arg3) : S80x80.Idx → EReal) slices_S80x80_S16x80_64_0 := by
  show StableHlo.after hostOps0 (fun b => m (c, b)) (Proc.devRef .tc main_v2) = _
  after_results

theorem V_b1 (c : Dev nD) : (V m c main_v3 : S1x80.Idx → EReal)
    = shapeCast S1x80 (m ((c : Thread nD τ).loc main_arg4) : S80.Idx → EReal) shapeCasts_S80_S1x80 := by
  show StableHlo.after hostOps0 (fun b => m (c, b)) (Proc.devRef .tc main_v3) = _
  after_results
  rfl

theorem V_b2 (c : Dev nD) : (V m c main_v4 : S1x16.Idx → EReal)
    = shapeCast S1x16 (m ((c : Thread nD τ).loc main_arg6) : S16.Idx → EReal) shapeCasts_S16_S1x16 := by
  show StableHlo.after hostOps0 (fun b => m (c, b)) (Proc.devRef .tc main_v4) = _
  after_results
  rfl

/-! ## Each window's block at a point, entry by entry -/

/-- An entry of the packed source block of point `t` is the source array's entry at the same row-major position. -/
theorem blkSrc (c : Dev nD) (t : Fin cfg0.N) (a : Fin 8000) (b : Fin 128) (e : Fin 1600000) (l : Fin 32)
    (h : e.val * 32 + l.val = (8000 * t.val + a.val) * 128 + b.val) :
    (iblk m c 0 t : S8000x128.Idx → EReal) (ix2 a b) = (m ((c : Thread nD τ).loc main_arg0) : S1600000x32.Idx → EReal) (ix2 e l) := by
  have ht := lt50 t
  have ha := a.isLt
  obtain ⟨e0, e1, -⟩ := idx_facts t
  unfold iblk
  rw [View.read_apply]
  show V m c main_v5 _ = _
  rw [V_src]
  refine shapeCast_apply _ _ _ (ix2 e l) ?_
  rw [Shape.rowMajor_val_two, Shape.rowMajor_val_two]
  show e.val * 32 + l.val = (win0_0.index t (0 : Fin 2) * 8000 + 1 * a.val) * 128 + (win0_0.index t (1 : Fin 2) * 128 + 1 * b.val)
  rw [e0, e1]
  omega

/-- The same for the packed target block. -/
theorem blkTgt (c : Dev nD) (t : Fin cfg0.N) (a : Fin 8000) (b : Fin 128) (e : Fin 1600000) (l : Fin 32)
    (h : e.val * 32 + l.val = (8000 * t.val + a.val) * 128 + b.val) :
    (iblk m c 1 t : S8000x128.Idx → EReal) (ix2 a b) = (m ((c : Thread nD τ).loc main_arg1) : S1600000x32.Idx → EReal) (ix2 e l) := by
  obtain ⟨-, -, e0, e1, -⟩ := idx_facts t
  unfold iblk
  rw [View.read_apply]
  show V m c main_v6 _ = _
  rw [V_tgt]
  refine shapeCast_apply _ _ _ (ix2 e l) ?_
  rw [Shape.rowMajor_val_two, Shape.rowMajor_val_two]
  show e.val * 32 + l.val = (win0_1.index t (0 : Fin 2) * 8000 + 1 * a.val) * 128 + (win0_1.index t (1 : Fin 2) * 128 + 1 * b.val)
  rw [e0, e1]
  omega

/-- An entry of the packed edge-feature block of point `t` is the edge-feature array's entry at the same row-major position. -/
theorem blkEa (c : Dev nD) (t : Fin cfg0.N) (a : Fin 4000) (b : Fin 128) (e : Fin 1600000) (l : Fin 16)
    (h : e.val * 16 + l.val = (4000 * t.val + a.val) * 128 + b.val) :
    (iblk m c 2 t : S4000x128.Idx → EReal) (ix2 a b) = (m ((c : Thread nD τ).loc main_arg2) : S1600000x16.Idx → EReal) (ix2 e l) := by
  obtain ⟨-, -, -, -, e0, e1, -⟩ := idx_facts t
  unfold iblk
  rw [View.read_apply]
  show V m c main_v7 _ = _
  rw [V_ea]
  refine shapeCast_apply _ _ _ (ix2 e l) ?_
  rw [Shape.rowMajor_val_two, Shape.rowMajor_val_two]
  show e.val * 16 + l.val = (win0_2.index t (0 : Fin 2) * 4000 + 1 * a.val) * 128 + (win0_2.index t (1 : Fin 2) * 128 + 1 * b.val)
  rw [e0, e1]
  omega

/-- The source band handed to every point is rows 0–31 of `w1`. -/
theorem blkWs (c : Dev nD) (t : Fin cfg0.N) (l : Fin 32) (k : Fin 80) :
    (iblk m c 3 t : S32x80.Idx → EReal) (ix2 l k) = (m ((c : Thread nD τ).loc main_arg3) : S80x80.Idx → EReal) (ix2 (bandS l) k) := by
  obtain ⟨-, -, -, -, -, -, e0, e1, -⟩ := idx_facts t
  unfold iblk
  rw [View.read_apply]
  show V m c main_v0 _ = _
  rw [V_ws]
  refine extractStridedSlice_apply _ _ _ _ (ix2 (bandS l) k) fun ax => ?_
  match ax with
  | ⟨0, _⟩ => show l.val = 0 + (win0_3.index t (0 : Fin 2) * 32 + 1 * l.val); rw [e0]; omega
  | ⟨1, _⟩ => show k.val = 0 + (win0_3.index t (1 : Fin 2) * 80 + 1 * k.val); rw [e1]; omega

/-- The target band is rows 32–63 of `w1`. -/
theorem blkWt (c : Dev nD) (t : Fin cfg0.N) (l : Fin 32) (k : Fin 80) :
    (iblk m c 4 t : S32x80.Idx → EReal) (ix2 l k) = (m ((c : Thread nD τ).loc main_arg3) : S80x80.Idx → EReal) (ix2 (bandT l) k) := by
  obtain ⟨-, -, -, -, -, -, -, -, e0, e1, -⟩ := idx_facts t
  unfold iblk
  rw [View.read_apply]
  show V m c main_v1 _ = _
  rw [V_wt]
  refine extractStridedSlice_apply _ _ _ _ (ix2 (bandT l) k) fun ax => ?_
  match ax with
  | ⟨0, _⟩ => show 32 + l.val = 32 + (win0_4.index t (0 : Fin 2) * 32 + 1 * l.val); rw [e0]; omega
  | ⟨1, _⟩ => show k.val = 0 + (win0_4.index t (1 : Fin 2) * 80 + 1 * k.val); rw [e1]; omega

/-- The edge-feature band is rows 64–79 of `w1`. -/
theorem blkWe (c : Dev nD) (t : Fin cfg0.N) (l : Fin 16) (k : Fin 80) :
    (iblk m c 5 t : S16x80.Idx → EReal) (ix2 l k) = (m ((c : Thread nD τ).loc main_arg3) : S80x80.Idx → EReal) (ix2 (bandE l) k) := by
  obtain ⟨-, -, -, -, -, -, -, -, -, -, e0, e1, -⟩ := idx_facts t
  unfold iblk
  rw [View.read_apply]
  show V m c main_v2 _ = _
  rw [V_we]
  refine extractStridedSlice_apply _ _ _ _ (ix2 (bandE l) k) fun ax => ?_
  match ax with
  | ⟨0, _⟩ => show 64 + l.val = 64 + (win0_5.index t (0 : Fin 2) * 16 + 1 * l.val); rw [e0]; omega
  | ⟨1, _⟩ => show k.val = 0 + (win0_5.index t (1 : Fin 2) * 80 + 1 * k.val); rw [e1]; omega

/-- The first bias row handed to every point is `b1`. -/
theorem blkB1 (c : Dev nD) (t : Fin cfg0.N) (k : Fin 80) :
    (iblk m c 6 t : S1x80.Idx → EReal) (ix2 (0 : Fin 1) k) = (m ((c : Thread nD τ).loc main_arg4) : S80.Idx → EReal) (ix1 k) := by
  obtain ⟨-, -, -, -, -, -, -, -, -, -, -, -, e0, e1, -⟩ := idx_facts t
  unfold iblk
  rw [View.read_apply]
  show V m c main_v3 _ = _
  rw [V_b1]
  refine shapeCast_apply _ _ _ (ix1 k) ?_
  rw [Shape.rowMajor_val_one, Shape.rowMajor_val_two]
  show k.val = (win0_6.index t (0 : Fin 2) * 1 + 1 * 0) * 80 + (win0_6.index t (1 : Fin 2) * 80 + 1 * k.val)
  rw [e0, e1]
  omega

/-- The second-layer weights handed to every point are `w2`. -/
theorem blkW2 (c : Dev nD) (t : Fin cfg0.N) (k : Fin 80) (j : Fin 16) :
    (iblk m c 7 t : S80x16.Idx → EReal) (ix2 k j) = (m ((c : Thread nD τ).loc main_arg5) : S80x16.Idx → EReal) (ix2 k j) := by
  obtain ⟨-, -, -, -, -, -, -, -, -, -, -, -, -, -, e0, e1, -⟩ := idx_facts t
  unfold iblk
  rw [View.read_apply]
  show V m c main_arg5 _ = _
  rw [V_main_arg5]
  refine congrArg (m ((c : Thread nD τ).loc main_arg5) : S80x16.Idx → EReal) (funext fun ax => Fin.ext ?_)
  match ax with
  | ⟨0, _⟩ => show win0_7.index t (0 : Fin 2) * 80 + 1 * k.val = k.val; rw [e0]; omega
  | ⟨1, _⟩ => show win0_7.index t (1 : Fin 2) * 16 + 1 * j.val = j.val; rw [e1]; omega

/-- The second bias row is `b2`. -/
theorem blkB2 (c : Dev nD) (t : Fin cfg0.N) (j : Fin 16) :
    (iblk m c 8 t : S1x16.Idx → EReal) (ix2 (0 : Fin 1) j) = (m ((c : Thread nD τ).loc main_arg6) : S16.Idx → EReal) (ix1 j) := by
  obtain ⟨-, -, -, -, -, -, -, -, -, -, -, -, -, -, -, -, e0, e1, -⟩ := idx_facts t
  unfold iblk
  rw [View.read_apply]
  show V m c main_v4 _ = _
  rw [V_b2]
  refine shapeCast_apply _ _ _ (ix1 j) ?_
  rw [Shape.rowMajor_val_one, Shape.rowMajor_val_two]
  show j.val = (win0_8.index t (0 : Fin 2) * 1 + 1 * 0) * 16 + (win0_8.index t (1 : Fin 2) * 16 + 1 * j.val)
  rw [e0, e1]
  omega

/-! ## What a point writes back, the cover, the array after the grid, the program's result -/

/-- The messages of the program's arguments on core `c`. -/
abbrev msgs (c : Dev nD) : S1600000x16.Idx → EReal :=
  messages (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The messages array re-read row-major at width 128: eight edges' messages to a row. -/
def packed (c : Dev nD) : S200000x128.Idx → EReal :=
  shapeCast S200000x128 (msgs m c) shapeCasts_S1600000x16_S200000x128

/-- WHAT POINT `t` WRITES BACK is block `t` of the packed messages. -/
theorem written (c : Dev nD) (t : Fin cfg0.N) :
    (dats m 0 c).flushed 9 t = ((cfg0.win 9).blk t).view.read (Elt Ideal) (packed m c) := by
  have ht := lt50 t
  obtain ⟨-, -, -, -, -, -, -, -, -, -, -, -, -, -, -, -, -, -, e0, e1⟩ := idx_facts t
  show (cfg0.win 9).cut (grid0.coords t) ((dats m 0 c).after 9 t) = _
  rw [after0_9]
  unfold out0_9
  rw [View.canon_unit_zero hz]
  simp only [View.ld_unit_zero (S := S8000x128) hz, View.ld_unit_zero (S := S4000x128) hz, View.ld_unit_zero (S := S32x80) hz,
    View.ld_unit_zero (S := S16x80) hz, View.ld_unit_zero (S := S1x80) hz, View.ld_unit_zero (S := S80x16) hz,
    View.ld_unit_zero (S := S1x16) hz]
  funext y
  revert y
  show ∀ y : S4000x128.Idx, k0_pay1 (F := Ideal) (iblk m c 0 t) (iblk m c 1 t) (iblk m c 2 t) (iblk m c 3 t) (iblk m c 4 t)
    (iblk m c 5 t) (iblk m c 6 t) (iblk m c 7 t) (iblk m c 8 t) y = packed m c (((cfg0.win 9).blk t).view.emb y)
  intro y
  obtain ⟨p, q, rfl⟩ : ∃ (p : Fin 4000) (q : Fin 128), y = ix2 p q := ⟨y 0, y 1, eq_ix2 y⟩
  have hp := p.isLt
  have hq := q.isLt
  refine (Tile.tile_apply (iblk m c 0 t) (iblk m c 1 t) (iblk m c 2 t) (iblk m c 3 t) (iblk m c 4 t) (iblk m c 5 t)
    (iblk m c 6 t) (iblk m c 7 t) (iblk m c 8 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) t.val
    (blkSrc m c t) (blkTgt m c t) (blkEa m c t) (blkWs m c t) (blkWt m c t) (blkWe m c t) (blkB1 m c t) (blkW2 m c t) (blkB2 m c t)
    p q (⟨((4000 * t.val + p.val) * 128 + q.val) / 16, by omega⟩ : Fin 1600000)
    (⟨((4000 * t.val + p.val) * 128 + q.val) % 16, by omega⟩ : Fin 16) ?_).trans ?_
  · show ((4000 * t.val + p.val) * 128 + q.val) / 16 * 16 + ((4000 * t.val + p.val) * 128 + q.val) % 16
      = (4000 * t.val + p.val) * 128 + q.val
    omega
  · unfold packed
    refine (shapeCast_apply (msgs m c) shapeCasts_S1600000x16_S200000x128 (((cfg0.win 9).blk t).view.emb (ix2 p q))
      (ix2 (⟨((4000 * t.val + p.val) * 128 + q.val) / 16, by omega⟩ : Fin 1600000)
        (⟨((4000 * t.val + p.val) * 128 + q.val) % 16, by omega⟩ : Fin 16)) ?_).symm
    rw [Shape.rowMajor_val_two, Shape.rowMajor_val_two]
    show ((4000 * t.val + p.val) * 128 + q.val) / 16 * 16 + ((4000 * t.val + p.val) * 128 + q.val) % 16
      = (win0_9.index t (0 : Fin 2) * 4000 + 1 * p.val) * 128 + (win0_9.index t (1 : Fin 2) * 128 + 1 * q.val)
    rw [e0, e1]
    omega

/-- THE COVER: row `i` of the packed result lies in the block of point `i / 4000`. -/
theorem covered (i : S200000x128.Idx) :
    ∃ t : Fin cfg0.N, (cfg0.win 9).flush t = true ∧ i ∈ ((cfg0.win 9).blk t).view.set := by
  have hi0 : (i 0).val < 200000 := (i 0).isLt
  have hi1 : (i 1).val < 128 := (i 1).isLt
  obtain ⟨t, ht⟩ : ∃ t : Fin cfg0.N, t.val = (i 0).val / 4000 :=
    ⟨⟨(i 0).val / 4000, lt_of_lt_of_eq (by omega : (i 0).val / 4000 < 50) (show cfg0.N = 50 from N_0).symm⟩, rfl⟩
  obtain ⟨-, -, -, -, -, -, -, -, -, -, -, -, -, -, -, -, -, -, e0, e1⟩ := idx_facts t
  refine ⟨t, flush0_9 t, ?_⟩
  show i ∈ ((View.whole main_v8).slice (win0_9.rect t)).set
  rw [View.set_slice_whole, Rect.mem_set_unit]
  intro a
  match a with
  | ⟨0, _⟩ =>
    show win0_9.index t (0 : Fin 2) * 4000 ≤ (i 0).val ∧ (i 0).val < win0_9.index t (0 : Fin 2) * 4000 + 4000
    rw [e0, ht]; omega
  | ⟨1, _⟩ =>
    show win0_9.index t (1 : Fin 2) * 128 ≤ (i 1).val ∧ (i 1).val < win0_9.index t (1 : Fin 2) * 128 + 128
    rw [e1]; omega

/-- THE ARRAY AFTER THE GRID: the packed messages. -/
theorem final (c : Dev nD) : (dats m 0 c).arrAt 9 cfg0.N = packed m c :=
  (dats m 0 c).arrAt_eq_of_cover 9 (packed m c) (fun t _ => written m c t) (fun i => covered i)

/-- THE PROGRAM'S RESULT: re-read row-major at width 16, the packed messages are the messages. -/
theorem result (c : Dev nD) : Pipeline.afterTail₀ cfgs (dats m) 0 (V0 m) [hostOps1] c main_v9 = msgs m c := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = packed m c :=
    (Pipeline.withArrays_arr spec0 launch0.win.arr_inj c _ _ 9).trans (final m c)
  refine funext fun i => ?_
  show shapeCast S1600000x16 (Pipeline.withArrays (cfgs 0).spec c (V0 m c) (fun w => (dats m 0 c).arrAt w (cfgs 0).N)
    (Proc.devRef .tc main_v8)) shapeCasts_S200000x128_S1600000x16 i = msgs m c i
  rw [hw]
  unfold packed
  exact congrFun (shapeCast_shapeCast (msgs m c) shapeCasts_S1600000x16_S200000x128 shapeCasts_S200000x128_S1600000x16) i

/-- THE RUN, READ: every weakly fair execution of the kernel's program ends with the messages of its arguments in its
    result and its arguments as they were. -/
theorem run : θ_run defs (onTc (τ := τ) (main (F := Ideal))) ⟨m, fun _ => 0, ρ⟩ fun r => ∀ c : Dev nD,
      r.2.mem ((c : Thread nD τ).loc main_v9) = msgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v9 (Pipeline.mem_restRefs_of main_v9 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 7).trans (((dats m 0 c).arrAt_in 7 rfl _).trans ((A_eq m c 7).trans (V_main_arg5 m c))),
      ((h c).2 main_arg6 (Pipeline.mem_restRefs_of main_arg6 (by decide) (by decide))).trans (W_main_arg6 m (dats m) c)⟩)
    (run_main m ρ)

end Cert.KernelIdeal.Whole

end
-- ==== Proof.RefValue.lean ====
/-
  The reference, index by index, is `EdgeMlp.messages`.

  The reference lays each edge's source, target and edge-feature rows end to end (a row of 80), multiplies by `w1`, adds
  `b1`, rectifies, multiplies by `w2`, adds `b2`, rectifies. Read at an index, its first product is ONE sum over the 80
  joined features; cut at 32 and 64 (`EdgeMlp.sum_three_bands`) it is the three band sums of `EdgeMlp.hiddenUnit`, since
  the joined row read inside a band is that piece's own row (`joined_src`, `joined_tgt`, `joined_ea`).
-/
import proofs.«157088_j2199023255661_2_alg».proof.Proof.Gen.ReferenceIdeal.Read
import proofs.«157088_j2199023255661_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Cert.EdgeMlp

variable (x0 x1 : (⟨S1600000x32, .f32⟩ : BufTy).Contents (Elt Ideal)) (x2 : (⟨S1600000x16, .f32⟩ : BufTy).Contents (Elt Ideal))
  (x3 : (⟨S80x80, .f32⟩ : BufTy).Contents (Elt Ideal)) (x4 : (⟨S80, .f32⟩ : BufTy).Contents (Elt Ideal))
  (x5 : (⟨S80x16, .f32⟩ : BufTy).Contents (Elt Ideal)) (x6 : (⟨S16, .f32⟩ : BufTy).Contents (Elt Ideal))

/-- The joined row of edge `e`, read in its first 32 places, is the source row. -/
theorem joined_src (e : Fin 1600000) (l : Fin 32) : val_main_v0 (F := Ideal) x0 x1 x2 (ix2 e (bandS l)) = x0 (ix2 e l) := by
  unfold val_main_v0
  refine concatenate_apply_piece (t := S1600000x80) 1 [⟨S1600000x32, x0⟩, ⟨S1600000x32, x1⟩, ⟨S1600000x16, x2⟩]
    concatenates_S1600000x32_S1600000x32_S1600000x16_S1600000x80_d1 (ix2 e (bandS l)) 0 (by show 0 < 3; omega) S1600000x32 x0 rfl rfl 0 rfl (ix2 e l) ?_ (Nat.zero_add _)
  intro b hb
  match b with
  | ⟨0, _⟩ => rfl
  | ⟨1, _⟩ => exact absurd rfl hb

/-- Read in its places 32–63 it is the target row. -/
theorem joined_tgt (e : Fin 1600000) (l : Fin 32) : val_main_v0 (F := Ideal) x0 x1 x2 (ix2 e (bandT l)) = x1 (ix2 e l) := by
  unfold val_main_v0
  refine concatenate_apply_piece (t := S1600000x80) 1 [⟨S1600000x32, x0⟩, ⟨S1600000x32, x1⟩, ⟨S1600000x16, x2⟩]
    concatenates_S1600000x32_S1600000x32_S1600000x16_S1600000x80_d1 (ix2 e (bandT l)) 1 (by show 1 < 3; omega) S1600000x32 x1 rfl rfl 32 rfl (ix2 e l) ?_ rfl
  intro b hb
  match b with
  | ⟨0, _⟩ => rfl
  | ⟨1, _⟩ => exact absurd rfl hb

/-- Read in its places 64–79 it is the edge-feature row. -/
theorem joined_ea (e : Fin 1600000) (l : Fin 16) : val_main_v0 (F := Ideal) x0 x1 x2 (ix2 e (bandE l)) = x2 (ix2 e l) := by
  unfold val_main_v0
  refine concatenate_apply_piece (t := S1600000x80) 1 [⟨S1600000x32, x0⟩, ⟨S1600000x32, x1⟩, ⟨S1600000x16, x2⟩]
    concatenates_S1600000x32_S1600000x32_S1600000x16_S1600000x80_d1 (ix2 e (bandE l)) 2 (by show 2 < 3; omega) S1600000x16 x2 rfl rfl 64 rfl (ix2 e l) ?_ rfl
  intro b hb
  match b with
  | ⟨0, _⟩ => rfl
  | ⟨1, _⟩ => exact absurd rfl hb

/-- The reference's rectified first layer at `(e, k)` is hidden unit `k` of edge `e`. -/
theorem hidden_eq (e : Fin 1600000) (k : Fin 80) :
    val_main_v5 (F := Ideal) x0 x1 x2 x3 x4 (ix2 e k) = hiddenUnit x0 x1 x2 x3 x4 e k := by
  have il : ∀ k' : Fin 80, lidx_main_v1 (ix2 e k) k' = ix2 e k' := fun k' => funext fun a => Fin.ext (by
    match a with | ⟨0, _⟩ => rfl | ⟨1, _⟩ => rfl)
  have ir : ∀ k' : Fin 80, ridx_main_v1 (ix2 e k) k' = ix2 k' k := fun k' => funext fun a => Fin.ext (by
    match a with | ⟨0, _⟩ => rfl | ⟨1, _⟩ => rfl)
  have ib : idx_main_v2 (idx_main_v3 (ix2 e k)) = ix1 k := funext fun a => Fin.ext (by
    match a with | ⟨0, _⟩ => rfl)
  unfold hiddenUnit
  rw [val_main_v5_apply, val_main_v4_apply, val_main_v1_apply, val_main_v3_apply, val_main_v2_apply,
    val_main_call0_v0_apply, val_main_call0_cst_apply, sum_three_bands]
  simp only [il, ir, ib, joined_src, joined_tgt, joined_ea]
  rfl

/-- THE REFERENCE: its result term is the messages array. -/
theorem result_eq : val_main_v10 (F := Ideal) x0 x1 x2 x3 x4 x5 x6 = messages x0 x1 x2 x3 x4 x5 x6 := by
  funext i
  obtain ⟨e, j, rfl⟩ : ∃ (e : Fin 1600000) (j : Fin 16), i = ix2 e j := ⟨i 0, i 1, eq_ix2 i⟩
  have il : ∀ k : Fin 80, lidx_main_v6 (ix2 e j) k = ix2 e k := fun k => funext fun a => Fin.ext (by
    match a with | ⟨0, _⟩ => rfl | ⟨1, _⟩ => rfl)
  have ir : ∀ k : Fin 80, ridx_main_v6 (ix2 e j) k = ix2 k j := fun k => funext fun a => Fin.ext (by
    match a with | ⟨0, _⟩ => rfl | ⟨1, _⟩ => rfl)
  have ib : idx_main_v7 (idx_main_v8 (ix2 e j)) = ix1 j := funext fun a => Fin.ext (by
    match a with | ⟨0, _⟩ => rfl)
  rw [messages_apply]
  unfold message
  rw [val_main_v10_apply, val_main_v9_apply, val_main_v6_apply, val_main_v8_apply, val_main_v7_apply,
    val_main_call1_v0_apply, val_main_call1_cst_apply]
  simp only [il, ir, ib, hidden_eq]
  rfl

end Cert.ReferenceIdeal.RefValue

end
-- ==== Proof.lean ====
/-
  The certificate of the edge-message kernel against its reference, over the extended reals.

  Both programs compute, for each of 1,600,000 edges, `max (h · w2 + b2) 0` with `h = max (x · w1 + b1) 0` and `x` the
  edge's source, target and edge-feature rows laid end to end (`EdgeMlp.messages`, Proof/Spec.lean). The reference forms
  `x` and multiplies once by `w1`; the kernel never forms `x`: it multiplies the three pieces by the three bands of rows
  of `w1` and adds the products. The two agree because a sum over 80 terms is the sum of its first 32, next 32 and last
  16 terms (`EdgeMlp.sum_three_bands`) — a fact of commutative monoids, so the precondition (finite inputs) is not used.
  The kernel also packs its arrays four or eight edges to a 128-wide row on the way in and unpacks the result on the
  way out; all of these are row-major re-readings and cancel (Proof/Tile.lean, Proof/KernelValue.lean).

  The frames of the two kernel programs are the generated ones; the reference's frame is its generated run with the
  result dropped; the idealization rewrote nothing, so `preserves` is `True`.
-/
import proofs.«157088_j2199023255661_2_alg».proof.Defs
import proofs.«157088_j2199023255661_2_alg».proof.Proof.Gen.Kernel
import proofs.«157088_j2199023255661_2_alg».proof.Proof.Gen.Kernel.Skeleton
import proofs.«157088_j2199023255661_2_alg».proof.Proof.Gen.Kernel.Launch
import proofs.«157088_j2199023255661_2_alg».proof.Proof.Gen.Kernel.Points
import proofs.«157088_j2199023255661_2_alg».proof.Proof.Gen.Kernel.Frame
import proofs.«157088_j2199023255661_2_alg».proof.Proof.Gen.KernelIdeal
import proofs.«157088_j2199023255661_2_alg».proof.Proof.Gen.KernelIdeal.Skeleton
import proofs.«157088_j2199023255661_2_alg».proof.Proof.Gen.KernelIdeal.Launch
import proofs.«157088_j2199023255661_2_alg».proof.Proof.Gen.KernelIdeal.Points
import proofs.«157088_j2199023255661_2_alg».proof.Proof.Gen.KernelIdeal.Frame
import proofs.«157088_j2199023255661_2_alg».proof.Proof.Gen.ReferenceIdeal
import proofs.«157088_j2199023255661_2_alg».proof.Proof.Gen.Pre_finite_inputs
import proofs.«157088_j2199023255661_2_alg».proof.Proof.Gen.ReferenceIdeal.Run
import proofs.«157088_j2199023255661_2_alg».proof.Proof.Gen.ReferenceIdeal.Read
import proofs.«157088_j2199023255661_2_alg».proof.Proof.KernelValue
import proofs.«157088_j2199023255661_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's program ends with `EdgeMlp.messages` of its arguments
    (Proof/KernelValue.lean) and the reference with the same function of its own (Proof/RefValue.lean). -/
theorem algebraic : Cert.algebraic_KernelIdeal_ReferenceIdeal := by
  intro m ρ m' ρ' _ hagree
  refine ⟨fun c => Cert.KernelIdeal.Whole.msgs m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq _ _ _ _ _ _ _).trans ?_
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
